-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64x64 : Shape := ⟨2, ![64, 64]⟩
abbrev S1x64 : Shape := ⟨2, ![1, 64]⟩
abbrev S1x4096 : Shape := ⟨2, ![1, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  main_v23

def fn {F : FTy → Type} [FloatOps F] (main_arg0 : FVec F S16384x4096 .f32) (main_arg1 : FVec F S64x4096 .f32) (main_arg2 : FVec F S64x64 .f32) (main_arg3 : FVec F S1x64 .f32) (main_arg4 : FVec F S1x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Kernel.lean ====
abbrev S16384x4096 : Shape := ⟨2, ![16384, 4096]⟩
abbrev S64x4096 : Shape := ⟨2, ![64, 4096]⟩
abbrev S64x64 : Shape := ⟨2, ![64, 64]⟩
abbrev S1x64 : Shape := ⟨2, ![1, 64]⟩
abbrev S1x4096 : Shape := ⟨2, ![1, 4096]⟩
abbrev S4096x64 : Shape := ⟨2, ![4096, 64]⟩
abbrev S16384x1 : Shape := ⟨2, ![16384, 1]⟩
abbrev S1024x4096 : Shape := ⟨2, ![1024, 4096]⟩
abbrev S1024x1 : Shape := ⟨2, ![1024, 1]⟩
abbrev S1024x64 : Shape := ⟨2, ![1024, 64]⟩
abbrev S1024 : Shape := ⟨1, ![1024]⟩

abbrev nBuf : Space → Nat
  | .hbm => 9
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64x64, .f32⟩
  | .hbm, ⟨3, _⟩ => ⟨S1x64, .f32⟩
  | .hbm, ⟨4, _⟩ => ⟨S1x4096, .f32⟩
  | .hbm, ⟨5, _⟩ => ⟨S4096x64, .f32⟩
  | .hbm, ⟨6, _⟩ => ⟨S64x64, .f32⟩
  | .hbm, ⟨7, _⟩ => ⟨S64x64, .bf16⟩
  | .hbm, ⟨8, _⟩ => ⟨S16384x1, .f32⟩
  | .local _ .vmem, ⟨0, _⟩ => ⟨S1024x4096, .f32⟩
  | .local _ .vmem, ⟨1, _⟩ => ⟨S1024x4096, .f32⟩
  | .local _ .vmem, ⟨2, _⟩ => ⟨S4096x64, .f32⟩
  | .local _ .vmem, ⟨3, _⟩ => ⟨S64x64, .bf16⟩
  | .local _ .vmem, ⟨4, _⟩ => ⟨S1x64, .f32⟩
  | .local _ .vmem, ⟨5, _⟩ => ⟨S1x4096, .f32⟩
  | .local _ .vmem, ⟨6, _⟩ => ⟨S1024x1, .f32⟩
  | .local _ .vmem, ⟨7, _⟩ => ⟨S1024x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x4096_S4096x64_1_0 : S64x4096.Transposes [1, 0] S4096x64
  transposes_S64x64_S64x64_1_0 : S64x64.Transposes [1, 0] S64x64
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  broadcasts_S1x64_S1024x64 : S1x64.Broadcasts S1024x64
  reduces_S1024x64_S1024 : S1024x64.Reduces [1] S1024
  shapeCasts_S1024_S1024x1 : S1024.ShapeCasts S1024x1
  inb_S1x4096_S1x4096_0_0 : ∀ a, (![0, 0] : Fin 2 → Nat) a + S1x4096.size a ≤ S1x4096.size a
  h_S1x4096 : 0 < S1x4096.numel
  broadcasts_S1x4096_S1024x4096 : S1x4096.Broadcasts S1024x4096
  reduces_S1024x4096_S1024 : S1024x4096.Reduces [1] S1024
  inb_S1024x1_S1024x1_0_0 : ∀ a, (![0, 0] : Fin 2 → Nat) a + S1024x1.size a ≤ S1024x1.size a
  h_S1024x1 : 0 < S1024x1.numel
  dot_S1024x4096_S4096x64_S1024x64_1_0_0_1_n_n_wf : DotDims.WF S1024x4096 S4096x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S16384x1.size a
  hwx0_5 : ∀ i : grid0.Coords, EltTy.bits .f32 = 32 ∨ (Rect.block (s := S16384x1) S1024x1.size (cc0_transform_5 i) (hinb0_5 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64x64 : Shape := ⟨2, ![64, 64]⟩
abbrev S1x64 : Shape := ⟨2, ![1, 64]⟩
abbrev S1x4096 : Shape := ⟨2, ![1, 4096]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64x64, .f32⟩
  | .hbm, ⟨3, _⟩ => ⟨S1x64, .f32⟩
  | .hbm, ⟨4, _⟩ => ⟨S1x4096, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .i1⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x4096, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S16384x4096_S16384_d1 : S16384x4096.ReducesTo [1] S16384
  bcast_S_S16384x1 : S_.BroadcastsInDim S16384x1 (![] : Fin 0 → Fin S16384x1.rank)
  dot_S16384x4096_S64x4096_S16384x64_1_1_0_0_n_n_wf : DotDims.WF S16384x4096 S64x4096 S16384x64 [1] [1] [0] [0] [] []
  dot_S16384x64_S64x64_S16384x64_1_1_0_0_n_n_wf : DotDims.WF S16384x64 S64x64 S16384x64 [1] [1] [0] [0] [] []
  dot_S16384x4096_S1x4096_S16384x1_1_1_0_0_n_n_wf : DotDims.WF S16384x4096 S1x4096 S16384x1 [1] [1] [0] [0] [] []

variable [Facts₀]

def dot_S16384x4096_S64x4096_S16384x64_1_1_0_0_n_n : DotDims S16384x4096 S64x4096 S16384x64 where
  lhsContracting := [1]
  rhsContracting := [1]
  lhsNonContracting := [0]
  rhsNonContracting := [0]
  lhsBatch := []
  rhsBatch := []
  wf := dot_S16384x4096_S64x4096_S16384x64_1_1_0_0_n_n_wf
def dot_S16384x64_S64x64_S16384x64_1_1_0_0_n_n : DotDims S16384x64 S64x64 S16384x64 where
  lhsContracting := [1]
  rhsContracting := [1]
  lhsNonContracting := [0]
  rhsNonContracting := [0]
  lhsBatch := []
  rhsBatch := []
  wf := dot_S16384x64_S64x64_S16384x64_1_1_0_0_n_n_wf
def dot_S16384x4096_S1x4096_S16384x1_1_1_0_0_n_n : DotDims S16384x4096 S1x4096 S16384x1 where
  lhsContracting := [1]
  rhsContracting := [1]
  lhsNonContracting := [0]
  rhsNonContracting := [0]
  lhsBatch := []
  rhsBatch := []
  wf := dot_S16384x4096_S1x4096_S16384x1_1_1_0_0_n_n_wf

class Facts : Prop extends Facts₀ where

variable [Facts]
-- ==== Proof.Marginal.lean ====
/-
  The exponent of a marginal density, row by row, and the two ways of spelling its quadratic part.

  For a row x of a matrix X (4096 entries), weights V (64 by 4096) and W (64 by 64), a bias row C (64 entries) and
  a row B (4096 entries), on the extended reals:
    gate k     = 1 / (1 + e^(-(sum over d of x d * V k d)))
    preact n   = (sum over k of gate k * W n k) + C n
    energy     = sum over n of softplus (preact n),   softplus u = max u 0 + log (1 + e^(-|u|))
  The fused form adds sum over d of x d * (B d - 1/2 * x d) to the energy; the split form adds the inner product
  of x with B and then takes away half the sum of squares of x.  For a real row x and a real row B the two are
  equal: a d-th term x d * (B d - x d / 2) is x d * B d - (x d)^2 / 2 by distributivity on the reals, a finite sum of
  differences is the difference of the sums, and adding a real difference to any extended real is adding its first
  part and then taking away its second.  Nothing is asked of the energy: it may be any extended real.
-/
import Idealize.ShloMosaic.PureOps.Ideal
import Idealize.ShloMosaic.PureOps.Ideal.Laws
import Idealize.ShloMosaic.Lib.ValueIdx

noncomputable section

open scoped BigOperators

namespace Cert.Marginal

open Idealize.ShloMosaic Idealize.ShloMosaic.ValueIdx

/-! ## The three float words the two programs spell -/

/-- The word of `1.0` is the extended real 1. -/
theorem word_one : Ideal.ofBits .f32 0x3F800000#32 = 1 := by
  simp [Ideal.ofBits, Ideal.ieee, -EReal.coe_mul]; norm_num

/-- The word of `0.5` is the real 1/2. -/
theorem word_half : Ideal.ofBits .f32 0x3F000000#32 = ((1 / 2 : ℝ) : EReal) := by
  simp [Ideal.ofBits, Ideal.ieee, -EReal.coe_mul]; norm_num

/-- The word of `2.0` is the real 2. -/
theorem word_two : Ideal.ofBits .f32 0x40000000#32 = ((2 : ℝ) : EReal) := by
  simp [Ideal.ofBits, Ideal.ieee, -EReal.coe_mul]; norm_num

/-! ## Softplus, as both programs compute it -/

/-- `max u 0 + log (1 + e^(-|u|))`, the overflow-free spelling of `log (1 + e^u)`; `|u|` is `max u (-u)`. -/
def softplus (u : EReal) : EReal := max u 0 + Ideal.log1p (Ideal.exp (-(max u (-u))))

/-- Taking away zero changes nothing on the extended reals. -/
theorem sub_zero' (u : EReal) : u - 0 = u := by
  rw [sub_eq_add_neg, neg_zero, add_zero]

/-- Zero minus a value is its negation. -/
theorem zero_sub' (u : EReal) : 0 - u = -u := by
  rw [sub_eq_add_neg, zero_add]

/-- A value never differs from itself, so a test for "not a number" picks the second branch. -/
theorem select_ne_self (p : CmpFPredicate) (hp : p = .one ∨ p = .une) (u a b : EReal) :
    Scalar.select (Ideal.cmp p u u) a b = b := by
  have h : Ideal.cmp p u u = 0#1 := by
    rcases hp with rfl | rfl <;> simp [Ideal.cmp]
  rw [h]; exact select_zero a b

/-! ## A finite sum of reals, read in the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The quadratic part, fused and split -/

/-- For real rows `x` and `b` and any extended real `y`:
    `y + Σ x (b - x/2) = (y + Σ x b) - (Σ x x) / 2`. -/
theorem quad_law {ι : Type*} [Fintype ι] (x b : ι → EReal) (hx : ∀ i, ∃ r : ℝ, x i = r) (hb : ∀ i, ∃ r : ℝ, b i = r)
    (y : EReal) :
    y + ∑ i, x i * (b i - ((1 / 2 : ℝ) : EReal) * x i)
      = (y + ∑ i, x i * b i) - Ideal.div (∑ i, x i * x i) ((2 : ℝ) : EReal) := by
  choose xr hxr using hx
  choose br hbr using hb
  have e1 : ∀ i, x i * (b i - ((1 / 2 : ℝ) : EReal) * x i) = ((xr i * (br i - 1 / 2 * xr i) : ℝ) : EReal) := fun i => by
    rw [hxr i, hbr i, ← EReal.coe_mul, ← EReal.coe_sub, ← EReal.coe_mul]
  have e2 : ∀ i, x i * b i = ((xr i * br i : ℝ) : EReal) := fun i => by rw [hxr i, hbr i, ← EReal.coe_mul]
  have e3 : ∀ i, x i * x i = ((xr i * xr i : ℝ) : EReal) := fun i => by rw [hxr i, ← EReal.coe_mul]
  simp only [e1, e2, e3, ← coe_sum]
  rw [Ideal.div_coe (by norm_num : (2 : ℝ) ≠ 0), ← EReal.coe_mul, sub_eq_add_neg, ← EReal.coe_neg, add_assoc, ← EReal.coe_add]
  refine congrArg (fun z : ℝ => y + (z : EReal)) ?_
  rw [Finset.sum_mul, ← Finset.sum_neg_distrib, ← Finset.sum_add_distrib]
  exact Finset.sum_congr rfl fun i _ => by ring

/-! ## The row function -/

/-- One row's density from the row `x`, the weights `v` and `w` by (unit, input), the bias `c` and the linear row `b`,
    the quadratic part fused into one sum. -/
def rowValue (x : Fin 4096 → EReal) (v : Fin 64 → Fin 4096 → EReal) (w : Fin 64 → Fin 64 → EReal) (c : Fin 64 → EReal)
    (b : Fin 4096 → EReal) : EReal :=
  Ideal.exp ((∑ n : Fin 64, softplus ((∑ k : Fin 64, Ideal.logistic (∑ d : Fin 4096, x d * v k d) * w n k) + c n))
    + ∑ d : Fin 4096, x d * (b d - Ideal.ofBits .f32 0x3F000000#32 * x d))

/-- The row function depends on its five arguments only. -/
theorem rowValue_congr {x x' : Fin 4096 → EReal} {v v' : Fin 64 → Fin 4096 → EReal} {w w' : Fin 64 → Fin 64 → EReal}
    {c c' : Fin 64 → EReal} {b b' : Fin 4096 → EReal} (hx : x = x') (hv : v = v') (hw : w = w') (hc : c = c') (hb : b = b') :
    rowValue x v w c b = rowValue x' v' w' c' b' := by
  subst hx hv hw hc hb; rfl

section Row

variable (X : (⟨2, ![16384, 4096]⟩ : Shape).Idx → EReal) (V : (⟨2, ![64, 4096]⟩ : Shape).Idx → EReal)
  (W : (⟨2, ![64, 64]⟩ : Shape).Idx → EReal) (C : (⟨2, ![1, 64]⟩ : Shape).Idx → EReal)
  (B : (⟨2, ![1, 4096]⟩ : Shape).Idx → EReal)

/-- The first layer's unit `k` on row `r`: the logistic function of the row's inner product with `V`'s row `k`. -/
def gate (r : Fin 16384) (k : Fin 64) : EReal :=
  Ideal.logistic (∑ d : Fin 4096, X (ix2 r d) * V (ix2 k d))

/-- The second layer's unit `n` before its softplus: the gates' inner product with `W`'s row `n`, plus the bias. -/
def preact (r : Fin 16384) (n : Fin 64) : EReal :=
  (∑ k : Fin 64, gate X V r k * W (ix2 n k)) + C (ix2 (0 : Fin 1) n)

/-- The sum of the second layer's softplus units on row `r`. -/
def energy (r : Fin 16384) : EReal := ∑ n : Fin 64, softplus (preact X V W C r n)

/-- Row `r`'s density with the quadratic part fused into one sum. -/
def fusedRow (r : Fin 16384) : EReal :=
  Ideal.exp (energy X V W C r
    + ∑ d : Fin 4096, X (ix2 r d) * (B (ix2 (0 : Fin 1) d) - Ideal.ofBits .f32 0x3F000000#32 * X (ix2 r d)))

/-- Row `r`'s density with the inner product and the halved sum of squares kept apart. -/
def splitRow (r : Fin 16384) : EReal :=
  Ideal.exp ((energy X V W C r + ∑ d : Fin 4096, X (ix2 r d) * B (ix2 (0 : Fin 1) d))
    - Ideal.div (∑ d : Fin 4096, X (ix2 r d) * X (ix2 r d)) (Ideal.ofBits .f32 0x40000000#32))

/-- The fused row is the row function of row `r` of `X` and the other arrays read by coordinates. -/
theorem fusedRow_eq (r : Fin 16384) :
    fusedRow X V W C B r = rowValue (fun d => X (ix2 r d)) (fun k d => V (ix2 k d)) (fun n k => W (ix2 n k))
      (fun n => C (ix2 (0 : Fin 1) n)) (fun d => B (ix2 (0 : Fin 1) d)) := rfl

/-- On real `X` and `B` the two spellings are one extended real. -/
theorem fused_eq_split (hX : ∀ i, ∃ r : ℝ, X i = r) (hB : ∀ i, ∃ r : ℝ, B i = r) (r : Fin 16384) :
    fusedRow X V W C B r = splitRow X V W C B r := by
  unfold fusedRow splitRow
  rw [word_half, word_two]
  exact congrArg Ideal.exp (quad_law (fun d : Fin 4096 => X (ix2 r d)) (fun d : Fin 4096 => B (ix2 (0 : Fin 1) d))
    (fun d => hX _) (fun d => hB _) _)

/-- The whole result, a column of 16384 densities. -/
def density : (⟨2, ![16384, 1]⟩ : Shape).Idx → EReal := fun i => fusedRow X V W C B (i 0)

end Row

end Cert.Marginal

end
-- ==== Proof.FiniteRows.lean ====
/-
  The precondition read back: an array all of whose entries pass the test |x| < +infinity holds only reals.

  The printed predicate is the conjunction, over the five arguments, of "every entry's absolute value is below the
  word of +infinity"; its value 1 gives each conjunct, each conjunct (an all-reduction by "and") gives the test at
  every index, and on the extended reals max x (-x) < +infinity excludes both infinities.  Only the first and the
  last argument are read back here: the rows of X and the row B, whose finiteness the quadratic law uses.
-/
import proofs.«106718_j15917148799599_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.FiniteRows

open Idealize.ShloMosaic Idealize.ShloMosaic.ValueIdx

/-- The word 0x7F800000 is +infinity. -/
theorem word_inf : Ideal.ofBits .f32 0x7F800000#32 = ⊤ := by simp [Ideal.ofBits, Ideal.ieee]

/-- An extended real whose absolute value is below +infinity is a real. -/
theorem real_of_finite_test (x : EReal) (h : Ideal.cmp .olt (max x (-x)) (Ideal.ofBits .f32 0x7F800000#32) = 1#1) :
    ∃ r : ℝ, x = r := by
  rw [word_inf] at h
  induction x using EReal.rec with
  | bot => simp [Ideal.cmp] at h
  | coe r => exact ⟨r, rfl⟩
  | top => simp [Ideal.cmp] at h

instance : Subsingleton (⟨0, ![]⟩ : Shape).Idx := ⟨fun a b => funext fun d => d.elim0⟩

/-- One conjunct of the predicate: if the all-reduction of the entrywise test is 1, every entry is a real. -/
theorem reals_of_all {a b : ℕ} (x : FVec Ideal ⟨2, ![a, b]⟩ .f32)
    (hb : (⟨0, ![]⟩ : Shape).BroadcastsInDim ⟨2, ![a, b]⟩ (![] : Fin 0 → Fin 2))
    (hr : (⟨2, ![a, b]⟩ : Shape).ReducesTo [0, 1] ⟨0, ![]⟩) (hu : 0 < (⟨0, ![]⟩ : Shape).numel)
    (e : Host.reduce IntOp.andi
        (cmpf .olt (Host.absf x) (broadcastInDim ⟨2, ![a, b]⟩ ![] hb (constant (F := Ideal) ⟨0, ![]⟩ .f32 0x7F800000#32)))
        (constantI ⟨0, ![]⟩ 1 1#1) hr hu ix0 = 1#1) (i : (⟨2, ![a, b]⟩ : Shape).Idx) : ∃ r : ℝ, x i = r := by
  have hi := Host.reduce_andi_all _ _ hr hu ix0 e i
  refine real_of_finite_test (x i) ?_
  rw [cmpf_apply, broadcastInDim_apply _ hb _ i ix0 (fun a => a.elim0)] at hi
  exact hi

open Cert.Pre_finite_inputs in
/-- The printed predicate, all ones, makes the first and the last argument arrays of reals. -/
theorem reals_of_pre [Cert.Pre_finite_inputs.Facts] (x0 : FVec Ideal S16384x4096 .f32) (x1 : FVec Ideal S64x4096 .f32)
    (x2 : FVec Ideal S64x64 .f32) (x3 : FVec Ideal S1x64 .f32) (x4 : FVec Ideal S1x4096 .f32)
    (h : Cert.Pre_finite_inputs.fn (F := Ideal) x0 x1 x2 x3 x4 = fun _ => 1#1) :
    (∀ i, ∃ r : ℝ, x0 i = r) ∧ (∀ i, ∃ r : ℝ, x4 i = r) := by
  have h0 := congrFun h ix0
  dsimp only [Cert.Pre_finite_inputs.fn, Cert.Pre_finite_inputs.fn_part1] at h0
  obtain ⟨h0123, h4⟩ := IntOp.andi_eq_one.1 h0
  obtain ⟨h012, _⟩ := IntOp.andi_eq_one.1 h0123
  obtain ⟨h01, _⟩ := IntOp.andi_eq_one.1 h012
  obtain ⟨hx0, _⟩ := IntOp.andi_eq_one.1 h01
  exact ⟨reals_of_all x0 _ _ _ hx0, reals_of_all x4 _ _ _ h4⟩

end Cert.FiniteRows

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.Body.lean ====
/-
  What the kernel's body stores at a row of its block, as a function of the blocks it loaded.

  The body stores one column of 1024 values.  At row p it is e^(energy + quad), where, with x the p-th row of the
  loaded block of X, Vt the loaded transposed weights, Wt the loaded transposed second-layer weights, c the bias row
  and b the linear row:
    gate k   = logistic (sum over d of x d * Vt d k)          (a matrix product into a zero accumulator)
    preact n = (sum over k of gate k * Wt k n) + c n          (a second product, the bias broadcast down the rows)
    energy   = sum over n of softplus (preact n)              (a lane sum from the zero word)
    quad     = sum over d of x d * (b d - 1/2 * x d)          (a second lane sum)
  Each non-pointwise operation is read at coordinates by one library lemma; the pointwise ones hold by definition.
-/
import proofs.«106718_j15917148799599_2_alg».proof.Proof.Gen.KernelIdeal.Skeleton
import proofs.«106718_j15917148799599_2_alg».proof.Proof.Marginal
import proofs.«106718_j15917148799599_2_alg».proof.Proof.LibPlainDot
import proofs.«106718_j15917148799599_2_alg».proof.Proof.LibKeepdims
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Marginal

/-- The softplus as the body spells it — a "not a number" test on u - 0, the branch u + 0 it never takes,
    max u 0 + log1p (exp (0 - |u - 0|)) — is the softplus of u. -/
theorem softplus_body (u : EReal) :
    Scalar.select (FloatOps.cmpf (F := Ideal) (φ := .f32) .one (u - Ideal.ofBits .f32 0x00000000#32) (u - Ideal.ofBits .f32 0x00000000#32))
        (u + Ideal.ofBits .f32 0x00000000#32)
        (max u (Ideal.ofBits .f32 0x00000000#32)
          + Ideal.log1p (Ideal.exp (Ideal.ofBits .f32 0x00000000#32
              - max (u - Ideal.ofBits .f32 0x00000000#32) (-(u - Ideal.ofBits .f32 0x00000000#32)))))
      = softplus u := by
  rw [Ideal.ofBits_zero_f32, sub_zero', zero_sub', Ideal.cmpf_def, select_ne_self .one (.inl rfl)]
  rfl

/-- The first layer at row p, unit k. -/
theorem gate_apply (x0 : FVec Ideal S1024x4096 .f32) (x1 : FVec Ideal S4096x64 .f32) (h : S4096x64.ShapeCasts S4096x64)
    (p : Fin 1024) (k : Fin 64) :
    (logistic (matmul dot_S1024x4096_S4096x64_S1024x64_1_0_0_1_n_n (some .fp32) x0 (shapeCast S4096x64 x1 h)
        (constant S1024x64 .f32 0x00000000#32)) : FVec Ideal S1024x64 .f32) (ix2 p k)
      = Ideal.logistic (∑ d : Fin 4096, x0 (ix2 p d) * x1 (ix2 d k)) := by
  rw [shapeCast_self]
  exact congrArg Ideal.logistic (Cert.Lib.PlainDot.matmul_plain_zero_apply (some .fp32) x0 x1 p k)

/-- The second layer before its softplus at row p, unit n. -/
theorem preact_apply (g : FVec Ideal S1024x64 .f32) (x2 : FVec Ideal S64x64 .bf16) (x3 : FVec Ideal S1x64 .f32)
    (hb : FTy.bits .bf16 < FTy.bits .f32) (h : S64x64.ShapeCasts S64x64) (hbr : S1x64.Broadcasts S1024x64)
    (p : Fin 1024) (n : Fin 64) :
    (addf (matmul dot_S1024x64_S64x64_S1024x64_1_0_0_1_n_n none (truncf .bf16 g hb) (shapeCast S64x64 x2 h)
        (constant S1024x64 .f32 0x00000000#32)) (broadcastTo S1024x64 x3 hbr) : FVec Ideal S1024x64 .f32) (ix2 p n)
      = (∑ k : Fin 64, g (ix2 p k) * x2 (ix2 k n)) + x3 (ix2 (0 : Fin 1) n) := by
  rw [shapeCast_self, addf_apply, broadcastTo_1b_ab_apply]
  exact congrArg (· + x3 (ix2 (0 : Fin 1) n))
    (Cert.Lib.PlainDot.matmul_plain_zero_apply none (truncf .bf16 g hb : FVec Ideal S1024x64 .bf16) x2 p n)

/-- A lane sum kept as a column: at (p, u) it is row p's sum. -/
theorem laneSum_apply {b : ℕ} (src : FVec Ideal ⟨2, ![1024, b]⟩ .f32) (hr : (⟨2, ![1024, b]⟩ : Shape).Reduces [1] S1024)
    (hφ : FKind.Formats .f32) (hacc : (0x00000000#32 : BitVec 32) = 0x00000000#32) (hc : S1024.ShapeCasts S1024x1)
    (p : Fin 1024) (u : Fin 1) :
    shapeCast S1024x1 (multiReduction .add [1] S1024 src 0x00000000#32 hr hφ hacc) hc (ix2 p u)
      = ∑ k : Fin b, src (ix2 p k) :=
  (Cert.Lib.Keepdims.shapeCast_a_a1_apply _ hc p u).trans (Cert.Lib.Keepdims.rowSum_apply src hr hφ hacc p)

/-- The body's softplus on a whole vector, read at an index. -/
theorem softplus_vec_apply (v : FVec Ideal S1024x64 .f32) (i : S1024x64.Idx) :
    (select (cmpf .one (subf v (broadcast S1024x64 (FloatOps.ofBits .f32 0x00000000#32)))
          (subf v (broadcast S1024x64 (FloatOps.ofBits .f32 0x00000000#32))))
        (addf v (broadcast S1024x64 (FloatOps.ofBits .f32 0x00000000#32)))
        (addf (maximumf v (broadcast S1024x64 (FloatOps.ofBits .f32 0x00000000#32)))
          (log1p (exp (subf (broadcast S1024x64 (FloatOps.ofBits .f32 0x00000000#32))
            (absf (subf v (broadcast S1024x64 (FloatOps.ofBits .f32 0x00000000#32)))))))) : FVec Ideal S1024x64 .f32) i
      = softplus (v i) :=
  softplus_body (v i)

/-- The value the body stores at row p of its column. -/
theorem stored_apply (x0 : FVec Ideal S1024x4096 .f32) (x1 : FVec Ideal S4096x64 .f32) (x2 : FVec Ideal S64x64 .bf16)
    (x3 : FVec Ideal S1x64 .f32) (x4 : FVec Ideal S1x4096 .f32) (p : Fin 1024) (u : Fin 1) :
    k0_pay1 (F := Ideal) x0 x1 x2 x3 x4 (ix2 p u)
      = rowValue (fun d => x0 (ix2 p d)) (fun k d => x1 (ix2 d k)) (fun n k => x2 (ix2 k n))
          (fun n => x3 (ix2 (0 : Fin 1) n)) (fun d => x4 (ix2 (0 : Fin 1) d)) := by
  unfold k0_pay1 rowValue
  dsimp only
  refine congrArg Ideal.exp (congrArg₂ (· + ·) ((laneSum_apply _ _ _ _ _ p u).trans ?_) ((laneSum_apply _ _ _ _ _ p u).trans ?_))
  · refine Finset.sum_congr rfl fun n _ => (softplus_vec_apply _ (ix2 p n)).trans (congrArg softplus ?_)
    refine (preact_apply _ x2 x3 _ _ _ p n).trans ?_
    exact congrArg (· + x3 (ix2 (0 : Fin 1) n))
      (Finset.sum_congr rfl fun k _ => congrArg (· * x2 (ix2 k n)) (gate_apply x0 x1 _ p k))
  · refine Finset.sum_congr rfl fun d _ => ?_
    exact congrArg (fun z => x0 (ix2 p d) * (z - Ideal.ofBits .f32 0x3F000000#32 * x0 (ix2 p d)))
      (broadcastTo_1b_ab_apply x4 _ p d)

end Cert.KernelIdeal.Body

end
-- ==== Proof.Blocks.lean ====
/-
  From blocks to the whole result: after the kernel's run the result array is the column of densities.

  The grid has 16 points.  At point t the kernel is given rows 1024 t .. 1024 t + 1023 of X as one block, and the
  whole of the transposed first-layer weights, of the transposed second-layer weights, of the bias row and of the
  linear row; it writes back rows 1024 t .. 1024 t + 1023 of the result.  The transposed weights are what two host
  operations before the launch made of V and W: reading them at (d, k) and (k, n) reads V at (k, d) and W at (n, k).
  So the value stored at row p of block t is the row function of row 1024 t + p of X and of V, W, C, B themselves,
  which is that row of one function of the arguments; the 16 blocks cover the 16384 rows (row r lies in the block of
  point r / 1024), hence the result array is that function.
-/
import proofs.«106718_j15917148799599_2_alg».proof.Proof.Gen.KernelIdeal.Frame
import proofs.«106718_j15917148799599_2_alg».proof.Proof.Gen.KernelIdeal.Value
import proofs.«106718_j15917148799599_2_alg».proof.Proof.Marginal
import proofs.«106718_j15917148799599_2_alg».proof.Proof.Body
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx Cert.Marginal

variable (m : (ℓ : Loc nD τ sig) → Buf (Elt Ideal) ℓ) (ρ : Dev nD → PrngReg)

/-- The zero offset pair is the constant zero. -/
theorem hz : (![0, 0] : Fin 2 → Nat) = fun _ => 0 := funext fun a => by fin_cases a <;> rfl

/-- The transposed first-layer weights the region finds. -/
theorem V_main_v0 (c : Dev nD) :
    (V m c main_v0 : S4096x64.Idx → EReal)
      = transpose S4096x64 [1, 0] (m ((c : Thread nD τ).loc main_arg1) : S64x4096.Idx → EReal) transposes_S64x4096_S4096x64_1_0 := by
  dsimp only [Gen.V, Gen.hostOps0]
  after_results

/-- The transposed second-layer weights the region finds (the change of format is the identity). -/
theorem V_main_v2 (c : Dev nD) :
    (V m c main_v2 : S64x64.Idx → EReal)
      = truncf (F := Ideal) .bf16 (transpose S64x64 [1, 0] (m ((c : Thread nD τ).loc main_arg2) : S64x64.Idx → EReal) transposes_S64x64_S64x64_1_0) bitsLt_bf16_f32 := by
  dsimp only [Gen.V, Gen.hostOps0]
  after_results

/-- The block index of every window at every point: the row block t for X and for the result, block (0, 0) for the
    four arrays passed whole (decided over the 16 points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read at coordinates -/

/-- Row p of X's block at point t is row 1024 t + p of X. -/
theorem iblk0_apply (c : Dev nD) (t : Fin cfg0.N) (p : Fin 1024) (d : Fin 4096) (r : Fin 16384)
    (hr : r.val = t.val * 1024 + p.val) :
    (iblk m c 0 t : Vec Ideal S1024x4096 .f32) (ix2 p d)
      = (m ((c : Thread nD τ).loc main_arg0) : S16384x4096.Idx → EReal) (ix2 r d) := by
  obtain ⟨e0, e1, -⟩ := idx_facts t
  unfold iblk
  rw [View.read_apply]
  show V m c main_arg0 _ = _
  rw [V_main_arg0 m c]
  refine congrArg (m ((c : Thread nD τ).loc main_arg0) : S16384x4096.Idx → EReal) ?_
  funext a; apply Fin.ext
  match a with
  | ⟨0, _⟩ => show win0_0.index t (0 : Fin 2) * 1024 + 1 * p.val = r.val; rw [e0, hr]; omega
  | ⟨1, _⟩ => show win0_0.index t (1 : Fin 2) * 4096 + 1 * d.val = d.val; rw [e1]; omega

/-- The first-layer block at (d, k) is V at (k, d). -/
theorem iblk1_apply (c : Dev nD) (t : Fin cfg0.N) (d : Fin 4096) (k : Fin 64) :
    (iblk m c 1 t : Vec Ideal S4096x64 .f32) (ix2 d k)
      = (m ((c : Thread nD τ).loc main_arg1) : S64x4096.Idx → EReal) (ix2 k d) := by
  obtain ⟨-, -, e0, e1, -⟩ := idx_facts t
  unfold iblk
  rw [View.read_apply]
  show V m c main_v0 _ = _
  rw [V_main_v0 m c]
  refine (congrArg (transpose S4096x64 [1, 0] (m ((c : Thread nD τ).loc main_arg1) : S64x4096.Idx → EReal) transposes_S64x4096_S4096x64_1_0) ?_).trans
    (transpose_ix2_apply _ _ d k)
  funext a; apply Fin.ext
  match a with
  | ⟨0, _⟩ => show win0_1.index t (0 : Fin 2) * 4096 + 1 * d.val = d.val; rw [e0]; omega
  | ⟨1, _⟩ => show win0_1.index t (1 : Fin 2) * 64 + 1 * k.val = k.val; rw [e1]; omega

/-- The second-layer block at (k, n) is W at (n, k). -/
theorem iblk2_apply (c : Dev nD) (t : Fin cfg0.N) (k : Fin 64) (n : Fin 64) :
    (iblk m c 2 t : Vec Ideal S64x64 .bf16) (ix2 k n)
      = (m ((c : Thread nD τ).loc main_arg2) : S64x64.Idx → EReal) (ix2 n k) := by
  obtain ⟨-, -, -, -, e0, e1, -⟩ := idx_facts t
  unfold iblk
  rw [View.read_apply]
  show V m c main_v2 _ = _
  rw [V_main_v2 m c]
  refine (congrArg (transpose S64x64 [1, 0] (m ((c : Thread nD τ).loc main_arg2) : S64x64.Idx → EReal) transposes_S64x64_S64x64_1_0) ?_).trans
    (transpose_ix2_apply _ _ k n)
  funext a; apply Fin.ext
  match a with
  | ⟨0, _⟩ => show win0_2.index t (0 : Fin 2) * 64 + 1 * k.val = k.val; rw [e0]; omega
  | ⟨1, _⟩ => show win0_2.index t (1 : Fin 2) * 64 + 1 * n.val = n.val; rw [e1]; omega

/-- The bias block is the bias row. -/
theorem iblk3_apply (c : Dev nD) (t : Fin cfg0.N) (n : Fin 64) :
    (iblk m c 3 t : Vec Ideal S1x64 .f32) (ix2 (0 : Fin 1) n)
      = (m ((c : Thread nD τ).loc main_arg3) : S1x64.Idx → EReal) (ix2 (0 : Fin 1) n) := by
  obtain ⟨-, -, -, -, -, -, e0, e1, -⟩ := idx_facts t
  unfold iblk
  rw [View.read_apply]
  show V m c main_arg3 _ = _
  rw [V_main_arg3 m c]
  refine congrArg (m ((c : Thread nD τ).loc main_arg3) : S1x64.Idx → EReal) ?_
  funext a; apply Fin.ext
  match a with
  | ⟨0, _⟩ => show win0_3.index t (0 : Fin 2) * 1 + 1 * 0 = 0; rw [e0]
  | ⟨1, _⟩ => show win0_3.index t (1 : Fin 2) * 64 + 1 * n.val = n.val; rw [e1]; omega

/-- The linear block is the linear row. -/
theorem iblk4_apply (c : Dev nD) (t : Fin cfg0.N) (d : Fin 4096) :
    (iblk m c 4 t : Vec Ideal S1x4096 .f32) (ix2 (0 : Fin 1) d)
      = (m ((c : Thread nD τ).loc main_arg4) : S1x4096.Idx → EReal) (ix2 (0 : Fin 1) d) := by
  obtain ⟨-, -, -, -, -, -, -, -, e0, e1, -⟩ := idx_facts t
  unfold iblk
  rw [View.read_apply]
  show V m c main_arg4 _ = _
  rw [V_main_arg4 m c]
  refine congrArg (m ((c : Thread nD τ).loc main_arg4) : S1x4096.Idx → EReal) ?_
  funext a; apply Fin.ext
  match a with
  | ⟨0, _⟩ => show win0_4.index t (0 : Fin 2) * 1 + 1 * 0 = 0; rw [e0]
  | ⟨1, _⟩ => show win0_4.index t (1 : Fin 2) * 4096 + 1 * d.val = d.val; rw [e1]; omega

/-! ## The result array -/

/-- The column of densities of the argument arrays as launched. -/
abbrev result (c : Dev nD) : Buf (Elt Ideal) ((c : Thread nD τ).loc main_v3) :=
  density (m ((c : Thread nD τ).loc main_arg0) : S16384x4096.Idx → EReal) (m ((c : Thread nD τ).loc main_arg1) : S64x4096.Idx → EReal)
    (m ((c : Thread nD τ).loc main_arg2) : S64x64.Idx → EReal) (m ((c : Thread nD τ).loc main_arg3) : S1x64.Idx → EReal)
    (m ((c : Thread nD τ).loc main_arg4) : S1x4096.Idx → EReal)

/-- What point t writes back is block t of the column of densities. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S1024x4096) hz, View.ld_unit_zero (S := S4096x64) hz, View.ld_unit_zero (S := S64x64) hz,
    View.ld_unit_zero (S := S1x64) hz, View.ld_unit_zero (S := S1x4096) hz]
  funext y
  obtain ⟨p, u, rfl⟩ : ∃ (p : Fin 1024) (u : Fin 1), y = ix2 p u := ⟨y 0, y 1, eq_ix2 y⟩
  show k0_pay1 (iblk m c 0 t) (iblk m c 1 t) (iblk m c 2 t) (iblk m c 3 t) (iblk m c 4 t) (ix2 p u)
    = result m c (((cfg0.win 5).blk t).view.emb (ix2 p u))
  refine (Body.stored_apply (iblk m c 0 t) (iblk m c 1 t) (iblk m c 2 t) (iblk m c 3 t) (iblk m c 4 t) p u).trans ?_
  obtain ⟨-, -, -, -, -, -, -, -, -, -, e0, -⟩ := idx_facts t
  have hr : ((((cfg0.win 5).blk t).view.emb (ix2 p u)) 0).val = t.val * 1024 + p.val := by
    show win0_5.index t (0 : Fin 2) * 1024 + 1 * p.val = _
    rw [e0]; omega
  refine Eq.trans ?_ (fusedRow_eq _ _ _ _ _ _).symm
  exact rowValue_congr (funext fun d => iblk0_apply m c t p d _ hr)
    (funext fun k => funext fun d => iblk1_apply m c t d k)
    (funext fun n => funext fun k => iblk2_apply m c t k n)
    (funext fun n => iblk3_apply m c t n)
    (funext fun d => iblk4_apply m c t d)

/-- An index of the result array is in point t's block iff each coordinate is in the block's range. -/
theorem mem_blk (t : Fin cfg0.N) (i : S16384x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v3).slice (win0_5.rect t)).set ↔ _
  rw [View.set_slice_whole, Rect.mem_set_unit]
  exact Iff.rfl

/-- Every row of the result is in the block of the point numbered by the row's quotient by 1024. -/
theorem cover (i : S16384x1.Idx) : ∃ t : Fin cfg0.N, (cfg0.win 5).flush t = true ∧ i ∈ ((cfg0.win 5).blk t).view.set := by
  have hN : cfg0.N = 16 := N_0
  have hi0 : (i 0).val < 16384 := (i 0).isLt
  have hi1 : (i 1).val < 1 := (i 1).isLt
  let t : Fin cfg0.N := ⟨(i 0).val / 1024, by rw [hN]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    rw [e0]; show (i 0).val / 1024 * 1024 ≤ (i 0).val ∧ (i 0).val < (i 0).val / 1024 * 1024 + 1024; omega
  | ⟨1, _⟩ =>
    show win0_5.index t (1 : Fin 2) * 1 ≤ (i 1).val ∧ (i 1).val < win0_5.index t (1 : Fin 2) * 1 + 1
    rw [e1]; omega

/-- The result array after the run. -/
theorem final (c : Dev nD) : (dats m 0 c).arrAt 5 cfg0.N = result m c :=
  (dats m 0 c).arrAt_eq_of_cover 5 (result m c) (fun t _ => flushed_eq m c t) cover

/-- The run: the result array ends at the column of densities of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Blocks

end
-- ==== Proof.RefRows.lean ====
/-
  The reference, read row by row: its result at row r is the split form of the density.

  The reference computes, for every row, the logistic gates as 1 / (1 + e^(-s)), the second layer with its bias, the
  softplus through the same overflow-free expression as the kernel (with a "not a number" test that never fires on
  the extended reals), the row sum of the softplus units from the zero word, the inner product with B, the sum of
  squares from the zero word divided by the word of 2, and the exponential of (energy + inner product) - half the
  squares.  Each operation is read at coordinates by the generated index lemmas; what is written here is the
  identification of their index maps with coordinates and the folding back into the named row functions.
-/
import proofs.«106718_j15917148799599_2_alg».proof.Proof.Gen.ReferenceIdeal.Read
import proofs.«106718_j15917148799599_2_alg».proof.Proof.Marginal

noncomputable section

open scoped BigOperators

namespace Cert.ReferenceIdeal.RowValue

open Cert.ReferenceIdeal Cert.ReferenceIdeal.Read Idealize.ShloMosaic Idealize.ShloMosaic.ValueIdx Cert.Marginal

variable (x0 : (⟨S16384x4096, .f32⟩ : BufTy).Contents (Elt Ideal)) (x1 : (⟨S64x4096, .f32⟩ : BufTy).Contents (Elt Ideal))
  (x2 : (⟨S64x64, .f32⟩ : BufTy).Contents (Elt Ideal)) (x3 : (⟨S1x64, .f32⟩ : BufTy).Contents (Elt Ideal))
  (x4 : (⟨S1x4096, .f32⟩ : BufTy).Contents (Elt Ideal))

/-! ## The generated index maps, by coordinates -/

theorem lidx0 (r : Fin 16384) (k : Fin 64) (d : Fin 4096) : lidx_main_v0 (ix2 r k) d = ix2 r d :=
  funext fun a => Fin.ext (by match a with | ⟨0, _⟩ => rfl | ⟨1, _⟩ => rfl)
theorem ridx0 (r : Fin 16384) (k : Fin 64) (d : Fin 4096) : ridx_main_v0 (ix2 r k) d = ix2 k d :=
  funext fun a => Fin.ext (by match a with | ⟨0, _⟩ => rfl | ⟨1, _⟩ => rfl)
theorem lidx7 (r : Fin 16384) (n : Fin 64) (k : Fin 64) : lidx_main_v7 (ix2 r n) k = ix2 r k :=
  funext fun a => Fin.ext (by match a with | ⟨0, _⟩ => rfl | ⟨1, _⟩ => rfl)
theorem ridx7 (r : Fin 16384) (n : Fin 64) (k : Fin 64) : ridx_main_v7 (ix2 r n) k = ix2 n k :=
  funext fun a => Fin.ext (by match a with | ⟨0, _⟩ => rfl | ⟨1, _⟩ => rfl)
theorem idx8 (r : Fin 16384) (n : Fin 64) : idx_main_v8 (ix2 r n) = ix2 (0 : Fin 1) n :=
  funext fun a => Fin.ext (by match a with | ⟨0, _⟩ => rfl | ⟨1, _⟩ => rfl)
theorem idx11 (r : Fin 16384) (n : Fin 64) : idx_main_v11 (ix1 r) n = ix2 r n :=
  funext fun a => Fin.ext (by match a with | ⟨0, _⟩ => rfl | ⟨1, _⟩ => rfl)
theorem idx12 (r : Fin 16384) (u : Fin 1) : idx_main_v12 (ix2 r u) = ix1 r :=
  funext fun a => Fin.ext (by match a with | ⟨0, _⟩ => rfl)
theorem lidx13 (r : Fin 16384) (u : Fin 1) (d : Fin 4096) : lidx_main_v13 (ix2 r u) d = ix2 r d :=
  funext fun a => Fin.ext (by match a with | ⟨0, _⟩ => rfl | ⟨1, _⟩ => rfl)
theorem ridx13 (r : Fin 16384) (u : Fin 1) (d : Fin 4096) : ridx_main_v13 (ix2 r u) d = ix2 (0 : Fin 1) d :=
  funext fun a => Fin.ext (by
    match a with
    | ⟨0, _⟩ => show u.val = 0; omega
    | ⟨1, _⟩ => rfl)
theorem idx16 (r : Fin 16384) (d : Fin 4096) : idx_main_v16 (ix1 r) d = ix2 r d :=
  funext fun a => Fin.ext (by match a with | ⟨0, _⟩ => rfl | ⟨1, _⟩ => rfl)
theorem idx17 (r : Fin 16384) (u : Fin 1) : idx_main_v17 (ix2 r u) = ix1 r :=
  funext fun a => Fin.ext (by match a with | ⟨0, _⟩ => rfl)

/-! ## The stages, folded into the row functions -/

/-- The first layer's unit: 1 / (1 + e^(-s)) is the logistic function of s. -/
theorem gate_apply (r : Fin 16384) (k : Fin 64) : val_main_v6 (F := Ideal) x0 x1 (ix2 r k) = gate x0 x1 r k := by
  rw [val_main_v6_apply, val_main_v5_apply, val_main_cst_0_apply, val_main_v4_apply, val_main_v3_apply, val_main_cst_apply,
    val_main_v2_apply, val_main_v1_apply, val_main_v0_apply]
  simp only [lidx0, ridx0, Ideal.ofBits_def, word_one, Ideal.hostDivf_def, Ideal.addf_def, Ideal.hostUnary_exp_def,
    Ideal.hostNegf_def, Ideal.negf_def]
  rfl

/-- The second layer's unit before its softplus. -/
theorem preact_apply (r : Fin 16384) (n : Fin 64) :
    val_main_v9 (F := Ideal) x0 x1 x2 x3 (ix2 r n) = preact x0 x1 x2 x3 r n := by
  rw [val_main_v9_apply, val_main_v7_apply, val_main_v8_apply]
  simp only [lidx7, ridx7, idx8, gate_apply, Ideal.addf_def]
  rfl

/-- The reference's softplus of that unit. -/
theorem softplus_apply (r : Fin 16384) (n : Fin 64) :
    val_main_v10 (F := Ideal) x0 x1 x2 x3 (ix2 r n) = softplus (preact x0 x1 x2 x3 r n) := by
  rw [val_main_v10_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, preact_apply]
  simp only [Ideal.ofBits_def, Ideal.ofBits_zero_f32, Ideal.subf_def, Ideal.addf_def, Ideal.maximumf_def,
    Ideal.hostUnary_log1p_def, Ideal.hostUnary_exp_def, Ideal.hostNegf_def, Ideal.negf_def, Ideal.hostAbsf_def,
    Ideal.absf_def, sub_zero', Ideal.cmpf_def, select_ne_self .une (.inr rfl)]
  rfl

/-- The row sum of the softplus units, kept as a column. -/
theorem energy_apply (r : Fin 16384) (u : Fin 1) :
    val_main_v12 (F := Ideal) x0 x1 x2 x3 (ix2 r u) = energy x0 x1 x2 x3 r := by
  rw [val_main_v12_apply, idx12, val_main_v11_apply, val_main_cst_1_apply]
  simp only [idx11, softplus_apply, Ideal.ofBits_def, Ideal.ofBits_zero_f32, zero_add]
  rfl

/-- The reference's result at row r is the split form. -/
theorem result_apply (r : Fin 16384) (u : Fin 1) :
    val_main_v21 (F := Ideal) x0 x1 x2 x3 x4 (ix2 r u) = splitRow x0 x1 x2 x3 x4 r := by
  rw [val_main_v21_apply, val_main_v20_apply, val_main_v14_apply, energy_apply, val_main_v13_apply, val_main_v19_apply,
    val_main_v17_apply, idx17, val_main_v16_apply, val_main_cst_2_apply, val_main_v18_apply, val_main_cst_3_apply]
  simp only [lidx13, ridx13, idx16, val_main_v15_apply, Ideal.ofBits_def, Ideal.ofBits_zero_f32, zero_add,
    Ideal.hostUnary_exp_def, Ideal.subf_def, Ideal.addf_def, Ideal.mulf_def, Ideal.hostDivf_def]
  rfl

/-- The whole result: the column of split-form densities. -/
theorem result_eq : val_main_v21 (F := Ideal) x0 x1 x2 x3 x4 = fun i => splitRow x0 x1 x2 x3 x4 (i 0) := by
  funext i
  rw [eq_ix2 i]
  exact result_apply x0 x1 x2 x3 x4 (i 0) (i 1)

end Cert.ReferenceIdeal.RowValue

end
-- ==== Proof.lean ====
/-
  A two-layer density kernel against its reference, on the extended reals.

  Both programs compute, for each of 16384 rows x of X, the number e^y with
    y = sum over n of softplus ((sum over k of logistic (x . V k) * W n k) + C n) + x . B - |x|^2 / 2.
  The kernel works on blocks of 1024 rows; it receives V and W already transposed, takes the two matrix products
  into zero accumulators, and fuses the last two terms into the single sum over d of x d * (B d - x d / 2).  The
  reference takes the same products as contractions of the untransposed weights, spells the logistic function as
  1 / (1 + e^(-s)), and keeps x . B and |x|^2 / 2 apart.  On the extended reals a change of float format is the
  identity, the two spellings of the logistic function and of the softplus are the same functions, and a lane sum
  from the zero word is the host's sum from a zero initial value; what differs is the quadratic part, and there the
  two agree because every entry of X and of B is a real (the precondition): distributivity and the splitting of a
  finite sum of differences are laws of the reals.  The energy term may be any extended real.

  The kernel's frame and its run block by block are the generated modules'; that block t of the result is rows
  1024 t .. 1024 t + 1023 of one function of the arguments, and that these blocks cover the result, is Blocks.lean
  over Body.lean (the stored column at a row); the reference's run and its stages at an index are generated, and
  RefRows.lean folds them into the row function; Marginal.lean has the row functions and the law; FiniteRows.lean
  reads the precondition back.
-/
import proofs.«106718_j15917148799599_2_alg».proof.Defs
import proofs.«106718_j15917148799599_2_alg».proof.Proof.Gen.Kernel
import proofs.«106718_j15917148799599_2_alg».proof.Proof.Gen.Kernel.Skeleton
import proofs.«106718_j15917148799599_2_alg».proof.Proof.Gen.Kernel.Launch
import proofs.«106718_j15917148799599_2_alg».proof.Proof.Gen.Kernel.Points
import proofs.«106718_j15917148799599_2_alg».proof.Proof.Gen.Kernel.Frame
import proofs.«106718_j15917148799599_2_alg».proof.Proof.Gen.KernelIdeal
import proofs.«106718_j15917148799599_2_alg».proof.Proof.Gen.KernelIdeal.Skeleton
import proofs.«106718_j15917148799599_2_alg».proof.Proof.Gen.KernelIdeal.Launch
import proofs.«106718_j15917148799599_2_alg».proof.Proof.Gen.KernelIdeal.Points
import proofs.«106718_j15917148799599_2_alg».proof.Proof.Gen.KernelIdeal.Frame
import proofs.«106718_j15917148799599_2_alg».proof.Proof.Gen.ReferenceIdeal
import proofs.«106718_j15917148799599_2_alg».proof.Proof.Gen.Pre_finite_inputs
import proofs.«106718_j15917148799599_2_alg».proof.Proof.Gen.KernelIdeal.Value
import proofs.«106718_j15917148799599_2_alg».proof.Proof.Gen.ReferenceIdeal.Run
import proofs.«106718_j15917148799599_2_alg».proof.Proof.Gen.ReferenceIdeal.Read
import proofs.«106718_j15917148799599_2_alg».proof.Proof.Marginal
import proofs.«106718_j15917148799599_2_alg».proof.Proof.FiniteRows
import proofs.«106718_j15917148799599_2_alg».proof.Proof.Blocks
import proofs.«106718_j15917148799599_2_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both results are the column of densities: the kernel's in the fused form, the reference's in the split form,
    equal row by row because X and B hold reals. -/
theorem algebraic : Cert.algebraic_KernelIdeal_ReferenceIdeal := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RowValue.result_eq]
  obtain ⟨h0, h1, h2, h3, h4⟩ := hagree c
  rw [h0, h1, h2, h3, h4]
  obtain ⟨hX, hB⟩ := Cert.FiniteRows.reals_of_pre _ _ _ _ _ (hpre c)
  funext i
  exact (Cert.Marginal.fused_eq_split _ _ _ _ _ hX hB (i 0)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
